-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S600000 32) (main_arg4 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1000x128 : Shape := ⟨2, ![1000, 128]⟩
abbrev S1000x1 : Shape := ⟨2, ![1000, 1]⟩
abbrev S600000x128 : Shape := ⟨2, ![600000, 128]⟩
abbrev S1x128 : Shape := ⟨2, ![1, 128]⟩

abbrev nBuf : Space → Nat
  | .hbm => 43
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S1x128, .f32⟩
  | .hbm, ⟨42, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x1, .f32⟩
  | .local _ .vmem, ⟨9, _⟩ => ⟨S1000x1, .f32⟩
  | .local _ .vmem, ⟨10, _⟩ => ⟨S128x128, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S1000x128_S1000x128_0_0 : ∀ a, (![0, 0] : Fin 2 → Nat) a + S1000x128.size a ≤ S1000x128.size a
  h_S1000x128 : 0 < S1000x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call2_cst : Ref sig .tc := ⟨.hbm, 48, rfl⟩
abbrev main_call2_v0 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  THE IDEALIZED KERNEL'S RUN WITH ITS RESULT ARRAY NAMED.

  @main is eight segments: five stretches of host operations (the two degree counts, their clamps at one, the two
  inverse square roots recast as columns), the first launch (rows scaled by the out-degree column), one more stretch
  (the index wrap, the row gather, the segment sum, the bias recast as a row) and the second launch (rows scaled by
  the in-degree column, the product with the weights, the bias, the rectifier).  The buffer contents at the eight
  boundaries are the generated fold `W0 … W8`; every weakly fair execution ends with every unscoped buffer at `W8`.
  Read at the result buffer, `W8` is what the second launch's write-backs leave: `(dat1 (V7 m ρ) c).arrAt 4 cfg1.N`.
-/
import proofs.«170466_j3023656977047_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the fifth window's array of the second launch, so the last boundary's contents there are
    that launch's write-backs folded. -/
theorem W8_result (c : Dev nD) :
    W8 m ρ c (Proc.devRef .tc main_v25) = (dat1 (V7 m ρ) c).arrAt 4 cfg1.N :=
  W8_arr m ρ c 4

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Hand

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibReluLayer.lean ====
/-
  ONE DENSE LAYER WITH A RECTIFIER, AS A FUNCTION OF ITS INDEX, generic in the three extents.

  For a row operand x of shape [A, K], a matrix w of shape [K, B] and a bias row b of shape [1, B], the layer
      layer x w b (r, c) = max ((sum over k of x (r, k) · w (k, c)) + b (0, c)) 0
  is what, at the ideal values (every float operation exact, rounding between formats the identity),

  * a kernel computes by a matmul of the operands (rounded to bf16) into the zero accumulator, an addition of the
    bias row broadcast to every row, and a maximum with the zero splat              (`kernel_eq`);
  * the host computes by a dot_general, an addition of the bias row broadcast in dimensions [0, 1] and a maximum
    with the rank-0 zero broadcast to the result's shape                            (`host_eq`).

  The layer at an index reads only one row of x, one column of w and one entry of b (`layer_congr`), so a block of
  rows of the layer's result is the layer of the same block of rows of x.

  Nothing here depends on a program.
-/
import Idealize.ShloMosaic.Lib.ValueIdx
import Idealize.ShloMosaic.Lib.Pipeline.Value
import Idealize.ShloMosaic.PureOps.Ideal.Laws
import proofs.«170466_j3023656977047_1_alg».proof.Proof.LibPlainDot

noncomputable section

open scoped BigOperators

namespace Cert.Lib.ReluLayer

open Idealize.ShloMosaic Idealize.ShloMosaic.ValueIdx Cert.Lib.PlainDot

variable {A A' K B : Nat}

/-- The layer at the output index (r, c): the rectified sum of the products along row r of `x` and column c of `w`,
    plus the bias at column c. -/
def layer (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => max ((∑ k : Fin K, x (ix2 (j 0) k) * w (ix2 k (j 1))) + b (ix2 0 (j 1))) 0

/-- The layer at an index depends on one row of the row operand, one column of the matrix and one entry of the bias:
    two layers (over row operands of different heights) agree at two indices where those agree. -/
theorem layer_congr (x : (⟨2, ![A, K]⟩ : Shape).Idx → EReal) (x' : (⟨2, ![A', K]⟩ : Shape).Idx → EReal)
    (w w' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (hx : ∀ k, x (ix2 (j 0) k) = x' (ix2 (i 0) k)) (hw : ∀ k, w (ix2 k (j 1)) = w' (ix2 k (i 1)))
    (hb : b (ix2 0 (j 1)) = b' (ix2 0 (i 1))) : layer x w b j = layer x' w' b' i := by
  unfold layer
  rw [hb]
  refine congrArg (fun s => max (s + b' (ix2 0 (i 1))) 0) (Finset.sum_congr rfl fun k _ => ?_)
  rw [hx k, hw k]

/-- The kernel's spelling: matmul of the operands rounded to bf16 into the zero accumulator, plus the bias row
    broadcast to every row, maximum with the zero splat. -/
theorem kernel_eq (hB : B ≠ 1) (x : FVec Ideal ⟨2, ![A, K]⟩ .f32) (w : FVec Ideal ⟨2, ![K, B]⟩ .f32)
    (b : FVec Ideal ⟨2, ![1, B]⟩ .f32) (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 x h1) (truncf .bf16 w h2)
          (constant ⟨2, ![A, B]⟩ .f32 0x00000000#32)) (broadcastTo ⟨2, ![A, B]⟩ b hbc))
        (broadcast ⟨2, ![A, B]⟩ (Scalar.ofBits (F := Ideal) .f32 0x00000000#32))
      = layer x w b := by
  funext j
  rw [maximumf_apply, addf_apply, matmul_zero_plain_apply, broadcast_apply]
  rw [broadcastTo_apply b hbc j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  show max _ (Ideal.ofBits .f32 0x00000000#32) = _
  rw [Ideal.ofBits_zero_f32]
  rfl

/-- The host's spelling: dot_general of the operands, plus the bias row broadcast in dimensions [0, 1], maximum with
    the rank-0 zero broadcast to the result's shape. -/
theorem host_eq (hB : B ≠ 1) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none x w) (broadcastInDim ⟨2, ![A, B]⟩ ![0, 1] hb b))
        (broadcastInDim ⟨2, ![A, B]⟩ ![] h0 (constant (F := Ideal) ⟨0, ![]⟩ .f32 0x00000000#32))
      = layer x w b := by
  funext j
  rw [maximumf_apply, addf_apply, dotGeneral_plain_apply]
  rw [broadcastInDim_apply ![0, 1] hb b j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  rw [broadcastInDim_apply ![] h0 _ j ix0 (fun a => a.elim0), constant_apply, Ideal.ofBits_zero_f32]
  rfl

end Cert.Lib.ReluLayer

end
-- ==== Proof.LibScaledLayer.lean ====
/-
  ROW SCALING BY A COLUMN, AND THE SCALED DENSE LAYER, generic in the extents.

  For an array x of shape [A, B] and a column v of shape [A, 1],
      rowScale x v (r, c) = x (r, c) · v (r, 0):
  every row of x multiplied by that row's entry of the column.  A kernel spells it as a product with the column
  broadcast along the lanes (`rowScale_kernel`); the host starts from a vector u of length A, spreads it in
  dimension 0 to an [A, 1] column and that in dimensions [0, 1] to [A, B] (`rowScale_host`): the column is then the
  vector recast as [A, 1].  A bias vector of length B becomes the row [1, B] either by a recast or by a spread in
  dimension 1: one array (`row_spread_eq_cast`).

  The scaled layer  max ((Σ_k (a (r, k) · v (r, 0)) · w (k, c)) + b (0, c)) 0  is `layer (rowScale a v) w b`, in the
  kernel's spelling (`scaledLayer_kernel`) and in the host's (`scaledLayer_host`).  Both `rowScale` and the layer read,
  at an output row r, only row r of their row operands (`rowScale_rows`, `scaledLayer_rows`): a block of consecutive
  rows of the result is the result of that block of rows.

  No law of arithmetic beyond reading both spellings at an index is used, so nothing here asks the entries to be
  finite.  Nothing here depends on a program (imports LibKeepdims, LibPlainDot, LibReluLayer).
-/
import Idealize.ShloMosaic.Lib.ValueIdx
import Idealize.ShloMosaic.Lib.Pipeline.Value
import Idealize.ShloMosaic.Lib.ValueLayout
import Idealize.ShloMosaic.PureOps.Ideal.Laws
import proofs.«170466_j3023656977047_1_alg».proof.Proof.LibKeepdims
import proofs.«170466_j3023656977047_1_alg».proof.Proof.LibPlainDot
import proofs.«170466_j3023656977047_1_alg».proof.Proof.LibReluLayer

noncomputable section

open scoped BigOperators

namespace Cert.Lib.ScaledLayer

open Idealize.ShloMosaic Idealize.ShloMosaic.ValueIdx Cert.Lib.PlainDot Cert.Lib.ReluLayer Cert.LibKeepdims

variable {A A' K B : Nat}

/-- Every row of `x` multiplied by that row's entry of the column `v`. -/
def rowScale (x : (⟨2, ![A, B]⟩ : Shape).Idx → EReal) (v : (⟨2, ![A, 1]⟩ : Shape).Idx → EReal) :
    (⟨2, ![A, B]⟩ : Shape).Idx → EReal :=
  fun j => x j * v (ix2 (j 0) (0 : Fin 1))

theorem rowScale_apply (x : (⟨2, ![A, B]⟩ : Shape).Idx → EReal) (v : (⟨2, ![A, 1]⟩ : Shape).Idx → EReal)
    (p : Fin A) (q : Fin B) : rowScale x v (ix2 p q) = x (ix2 p q) * v (ix2 p (0 : Fin 1)) := rfl

/-- Row r of the scaled array reads row r of the array and entry r of the column: two scaled arrays (of different
    heights) agree at two indices where those agree. -/
theorem rowScale_rows (x : (⟨2, ![A, B]⟩ : Shape).Idx → EReal) (v : (⟨2, ![A, 1]⟩ : Shape).Idx → EReal)
    (x' : (⟨2, ![A', B]⟩ : Shape).Idx → EReal) (v' : (⟨2, ![A', 1]⟩ : Shape).Idx → EReal)
    (p : Fin A) (p' : Fin A') (q : Fin B)
    (hx : x (ix2 p q) = x' (ix2 p' q)) (hv : v (ix2 p (0 : Fin 1)) = v' (ix2 p' (0 : Fin 1))) :
    rowScale x v (ix2 p q) = rowScale x' v' (ix2 p' q) := by
  rw [rowScale_apply, rowScale_apply, hx, hv]

/-- The kernel's spelling: the product with the column broadcast along the lanes. -/
theorem rowScale_kernel (x : FVec Ideal ⟨2, ![A, B]⟩ .f32) (v : FVec Ideal ⟨2, ![A, 1]⟩ .f32)
    (hb : (⟨2, ![A, 1]⟩ : Shape).Broadcasts ⟨2, ![A, B]⟩) :
    mulf x (broadcastTo ⟨2, ![A, B]⟩ v hb) = rowScale x v := by
  funext j
  obtain ⟨p, q, rfl⟩ : ∃ (p : Fin A) (q : Fin B), j = ix2 p q := ⟨j 0, j 1, eq_ix2 j⟩
  rw [mulf_apply, broadcastTo_a1_ab_apply, rowScale_apply]

/-- A vector of length A spread in dimension 0 to an [A, 1] column is the vector recast as [A, 1]. -/
theorem col_spread_eq_cast {α : Type} (u : (⟨1, ![A]⟩ : Shape).Idx → α)
    (h1 : (⟨1, ![A]⟩ : Shape).BroadcastsInDim ⟨2, ![A, 1]⟩ (![0] : Fin 1 → Fin 2))
    (hs : (⟨1, ![A]⟩ : Shape).ShapeCasts ⟨2, ![A, 1]⟩) :
    broadcastInDim ⟨2, ![A, 1]⟩ ![0] h1 u = shapeCast ⟨2, ![A, 1]⟩ u hs := by
  funext j
  obtain ⟨p, q, rfl⟩ : ∃ (p : Fin A) (q : Fin 1), j = ix2 p q := ⟨j 0, j 1, eq_ix2 j⟩
  rw [shapeCast_a_a1_apply]
  refine broadcastInDim_apply ![0] h1 u (ix2 p q) (ix1 p) fun a => ?_
  match a with
  | ⟨0, _⟩ =>
    show p.val = if A = 1 then 0 else p.val
    split
    · have := p.isLt; omega
    · rfl

/-- The host's spelling: the product with the vector spread to a column and the column spread along the lanes. -/
theorem rowScale_host (x : FVec Ideal ⟨2, ![A, B]⟩ .f32) (u : FVec Ideal ⟨1, ![A]⟩ .f32)
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hs : (⟨1, ![A]⟩ : Shape).ShapeCasts ⟨2, ![A, 1]⟩) :
    mulf x (broadcastInDim ⟨2, ![A, B]⟩ ![0, 1] h2 (broadcastInDim ⟨2, ![A, 1]⟩ ![0] h1 u))
      = rowScale x (shapeCast ⟨2, ![A, 1]⟩ u hs) := by
  rw [col_spread_eq_cast u h1 hs]
  funext j
  obtain ⟨p, q, rfl⟩ : ∃ (p : Fin A) (q : Fin B), j = ix2 p q := ⟨j 0, j 1, eq_ix2 j⟩
  rw [mulf_apply, rowScale_apply]
  refine congrArg (fun s => x (ix2 p q) * s) ?_
  refine broadcastInDim_apply ![0, 1] h2 _ (ix2 p q) (ix2 p (0 : Fin 1)) fun a => ?_
  match a with
  | ⟨0, _⟩ =>
    show p.val = if A = 1 then 0 else p.val
    split
    · have := p.isLt; omega
    · rfl
  | ⟨1, _⟩ => show (0 : Nat) = if (1 : Nat) = 1 then 0 else _; rw [if_pos rfl]

/-- A vector of length B spread in dimension 1 to the row [1, B] is the vector recast as [1, B]. -/
theorem row_spread_eq_cast {α : Type} (b : (⟨1, ![B]⟩ : Shape).Idx → α)
    (h : (⟨1, ![B]⟩ : Shape).BroadcastsInDim ⟨2, ![1, B]⟩ (![1] : Fin 1 → Fin 2))
    (hs : (⟨1, ![B]⟩ : Shape).ShapeCasts ⟨2, ![1, B]⟩) :
    broadcastInDim ⟨2, ![1, B]⟩ ![1] h b = shapeCast ⟨2, ![1, B]⟩ b hs := by
  funext j
  obtain ⟨p, q, rfl⟩ : ∃ (p : Fin 1) (q : Fin B), j = ix2 p q := ⟨j 0, j 1, eq_ix2 j⟩
  rw [shapeCast_apply b hs (ix2 p q) (ix1 q) (by
    have hp : p.val = 0 := by omega
    rw [Shape.rowMajor_val_two, Shape.rowMajor_val_one]
    show q.val = p.val * B + q.val
    rw [hp]; omega)]
  refine broadcastInDim_apply ![1] h b (ix2 p q) (ix1 q) fun a => ?_
  match a with
  | ⟨0, _⟩ =>
    show q.val = if B = 1 then 0 else q.val
    split
    · have := q.isLt; omega
    · rfl

/-- The kernel's spelling of the scaled layer: the rows scaled by the column, both operands rounded to bf16, a matmul
    into the zero accumulator, the bias row added to every row, the maximum with the zero splat. -/
theorem scaledLayer_kernel (hB : B ≠ 1) (a : FVec Ideal ⟨2, ![A, K]⟩ .f32) (v : FVec Ideal ⟨2, ![A, 1]⟩ .f32)
    (w : FVec Ideal ⟨2, ![K, B]⟩ .f32) (b : FVec Ideal ⟨2, ![1, B]⟩ .f32)
    (hv : (⟨2, ![A, 1]⟩ : Shape).Broadcasts ⟨2, ![A, K]⟩)
    (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 (mulf a (broadcastTo ⟨2, ![A, K]⟩ v hv)) h1)
          (truncf .bf16 w h2) (constant ⟨2, ![A, B]⟩ .f32 0x00000000#32)) (broadcastTo ⟨2, ![A, B]⟩ b hbc))
        (broadcast ⟨2, ![A, B]⟩ (Scalar.ofBits (F := Ideal) .f32 0x00000000#32))
      = layer (rowScale a v) w b := by
  rw [rowScale_kernel a v hv]
  exact kernel_eq hB (rowScale a v) w b h1 h2 hbc

/-- The host's spelling of the scaled layer: the rows scaled by the vector spread to [A, K], a dot_general, the bias
    vector spread to [1, B] and then to every row, the maximum with the rank-0 zero spread to the result's shape. -/
theorem scaledLayer_host (hB : B ≠ 1) (a : FVec Ideal ⟨2, ![A, K]⟩ .f32) (u : FVec Ideal ⟨1, ![A]⟩ .f32)
    (w : FVec Ideal ⟨2, ![K, B]⟩ .f32) (b : FVec Ideal ⟨1, ![B]⟩ .f32)
    (h1 : (⟨1, ![A]⟩ : Shape).BroadcastsInDim ⟨2, ![A, 1]⟩ (![0] : Fin 1 → Fin 2))
    (h2 : (⟨2, ![A, 1]⟩ : Shape).BroadcastsInDim ⟨2, ![A, K]⟩ (![0, 1] : Fin 2 → Fin 2))
    (hs : (⟨1, ![A]⟩ : Shape).ShapeCasts ⟨2, ![A, 1]⟩)
    (hr : (⟨1, ![B]⟩ : Shape).BroadcastsInDim ⟨2, ![1, B]⟩ (![1] : Fin 1 → Fin 2))
    (hrs : (⟨1, ![B]⟩ : Shape).ShapeCasts ⟨2, ![1, B]⟩)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none
            (mulf a (broadcastInDim ⟨2, ![A, K]⟩ ![0, 1] h2 (broadcastInDim ⟨2, ![A, 1]⟩ ![0] h1 u))) w)
          (broadcastInDim ⟨2, ![A, B]⟩ ![0, 1] hb (broadcastInDim ⟨2, ![1, B]⟩ ![1] hr b)))
        (broadcastInDim ⟨2, ![A, B]⟩ ![] h0 (constant (F := Ideal) ⟨0, ![]⟩ .f32 0x00000000#32))
      = layer (rowScale a (shapeCast ⟨2, ![A, 1]⟩ u hs)) w (shapeCast ⟨2, ![1, B]⟩ b hrs) := by
  rw [rowScale_host a u h1 h2 hs, row_spread_eq_cast b hr hrs]
  exact host_eq hB _ w _ hb h0

/-- Row r of the scaled layer reads row r of the row operand and entry r of the column: the layer over a block of
    rows (an array of another height) agrees with the whole layer where the block's rows are the array's. -/
theorem scaledLayer_rows (a : (⟨2, ![A, K]⟩ : Shape).Idx → EReal) (v : (⟨2, ![A, 1]⟩ : Shape).Idx → EReal)
    (a' : (⟨2, ![A', K]⟩ : Shape).Idx → EReal) (v' : (⟨2, ![A', 1]⟩ : Shape).Idx → EReal)
    (w : (⟨2, ![K, B]⟩ : Shape).Idx → EReal) (b : (⟨2, ![1, B]⟩ : Shape).Idx → EReal)
    (p : Fin A) (p' : Fin A') (q : Fin B)
    (ha : ∀ k, a (ix2 p k) = a' (ix2 p' k)) (hv : v (ix2 p (0 : Fin 1)) = v' (ix2 p' (0 : Fin 1))) :
    layer (rowScale a v) w b (ix2 p q) = layer (rowScale a' v') w b (ix2 p' q) :=
  layer_congr (rowScale a v) (rowScale a' v') w w b b (ix2 p q) (ix2 p' q)
    (fun k => rowScale_rows a v a' v' p p' k (ha k) hv) (fun _ => rfl) rfl

end Cert.Lib.ScaledLayer

end
-- ==== Proof.Region0.lean ====
/-
  THE FIRST LAUNCH: THE ROWS OF ITS FIRST OPERAND SCALED BY ITS COLUMN OPERAND.

  The grid has 50 points; at point t the three windows (the [50000, 128] array, the [50000, 1] column, the
  [50000, 128] output) are all at rows 1000·t … 1000·t + 999.  The body multiplies its array block by its column
  block broadcast along the lanes, which is `rowScale` of the two blocks; and row r of `rowScale x v` reads only
  row r of x and entry r of v, so what point t writes back is rows 1000·t … of `rowScale` of the two whole arrays.
  The 50 output blocks tile the array (row r is in block r / 1000), so after the launch the output array is
  `rowScale` of the two operand arrays as the launch found them — whatever those contents `V` are.
-/
import proofs.«170466_j3023656977047_1_alg».proof.Proof.Gen.KernelIdeal.Frame
import proofs.«170466_j3023656977047_1_alg».proof.Proof.LibScaledLayer
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Lib.ScaledLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product is the row scaling of its two loaded blocks. -/
theorem pay0_eq (x0 : Vec Ideal S1000x128 .f32) (x1 : Vec Ideal S1000x1 .f32) :
    k0_pay1 (F := Ideal) x0 x1 = rowScale x0 x1 := by
  unfold k0_pay1
  dsimp only
  rw [shapeCast_self]
  exact rowScale_kernel x0 x1 _

/-- At point t every window of the first launch is at block row t, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The array window's block at point t is rows 1000·t … of the array. -/
theorem iblk0_0_apply (c : Dev nD) (t : Fin cfg0.N) (p : Fin 1000) (q : Fin 128) (r : Fin 50000)
    (hr : r.val = t.val * 1000 + p.val) :
    (iblk0 V c 0 t : Vec Ideal S1000x128 .f32) (ix2 p q) = (V c main_arg0 : S50000x128.Idx → EReal) (ix2 r q) := by
  obtain ⟨e00, e01, -, -, -, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * p.val = r.val; rw [e00, hr]; omega
  | ⟨1, _⟩ => show win0_0.index t (1 : Fin 2) * 128 + 1 * q.val = q.val; rw [e01]; omega

/-- The column window's block at point t is entries 1000·t … of the column. -/
theorem iblk0_1_apply (c : Dev nD) (t : Fin cfg0.N) (p : Fin 1000) (r : Fin 50000)
    (hr : r.val = t.val * 1000 + p.val) :
    (iblk0 V c 1 t : Vec Ideal S1000x1 .f32) (ix2 p (0 : Fin 1)) = (V c main_v10 : S50000x1.Idx → EReal) (ix2 r (0 : Fin 1)) := by
  obtain ⟨-, -, e10, e11, -, -⟩ := idx0 t
  unfold iblk0
  rw [View.read_apply]
  show V c main_v10 _ = V c main_v10 _
  refine congrArg (V c main_v10) (funext fun a => Fin.ext ?_)
  match a with
  | ⟨0, _⟩ => show win0_1.index t (0 : Fin 2) * 1000 + 1 * p.val = r.val; rw [e10, hr]; omega
  | ⟨1, _⟩ => show win0_1.index t (1 : Fin 2) * 1 + 1 * (0 : Fin 1).val = (0 : Fin 1).val; rw [e11]; rfl

/-- What point t writes back is block t of the row scaling of the two whole operand arrays. -/
theorem flushed0 (c : Dev nD) (t : Fin cfg0.N) :
    (dat0 V c).flushed 2 t
      = ((cfg0.win 2).blk t).view.read (Elt Ideal) (rowScale (V c main_arg0 : S50000x128.Idx → EReal) (V c main_v10 : S50000x1.Idx → EReal)) := by
  show (cfg0.win 2).cut (grid0.coords t) ((dat0 V c).after 2 t) = _
  rw [after0_2]
  unfold out0_2
  rw [View.canon_unit_zero hz]
  simp only [View.ld_unit_zero (S := S1000x128) hz, View.ld_unit_zero (S := S1000x1) hz]
  rw [pay0_eq]
  obtain ⟨-, -, -, -, e20, e21⟩ := idx0 t
  funext y
  obtain ⟨p, q, rfl⟩ : ∃ (p : Fin 1000) (q : Fin 128), y = ix2 p q := ⟨y 0, y 1, eq_ix2 y⟩
  have hlt : t.val * 1000 + p.val < 50000 := by
    have ht50 : t.val < 50 := lt_of_lt_of_eq t.isLt N_0
    have := p.isLt; omega
  have he : ((cfg0.win 2).blk t).view.emb (ix2 p q) = (ix2 (⟨t.val * 1000 + p.val, hlt⟩ : Fin 50000) q : S50000x128.Idx) := by
    funext a; apply Fin.ext
    match a with
    | ⟨0, _⟩ => show win0_2.index t (0 : Fin 2) * 1000 + 1 * p.val = t.val * 1000 + p.val; rw [e20]; omega
    | ⟨1, _⟩ => show win0_2.index t (1 : Fin 2) * 128 + 1 * q.val = q.val; rw [e21]; omega
  show rowScale (iblk0 V c 0 t : Vec Ideal S1000x128 .f32) (iblk0 V c 1 t : Vec Ideal S1000x1 .f32) (ix2 p q)
    = rowScale (V c main_arg0 : S50000x128.Idx → EReal) (V c main_v10 : S50000x1.Idx → EReal) (((cfg0.win 2).blk t).view.emb (ix2 p q))
  rw [he]
  exact rowScale_rows _ _ _ _ p ⟨t.val * 1000 + p.val, hlt⟩ q
    (iblk0_0_apply V c t p q _ rfl) (iblk0_1_apply V c t p _ rfl)

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v13).slice (win0_2.rect t)).set ↔ _
  rw [View.set_slice_whole, Rect.mem_set_unit]
  exact Iff.rfl

/-- The 50 output blocks tile the output array: row r is in block r / 1000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 1000 :=
    ⟨⟨(i 0).val / 1000, by rw [show cfg0.N = 50 from N_0]; omega⟩, rfl⟩
  obtain ⟨-, -, -, -, e20, e21⟩ := idx0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; rw [e20, ht]; omega
  | ⟨1, _⟩ => show win0_2.index t (1 : Fin 2) * 128 ≤ (i 1).val ∧ (i 1).val < win0_2.index t (1 : Fin 2) * 128 + 128; rw [e21]; omega

/-- After the first launch its output array is the row scaling of its two operand arrays as the launch found them. -/
theorem final0 (c : Dev nD) :
    (dat0 V c).arrAt 2 cfg0.N = rowScale (V c main_arg0 : S50000x128.Idx → EReal) (V c main_v10 : S50000x1.Idx → EReal) :=
  (dat0 V c).arrAt_eq_of_cover 2 _ (fun t _ => flushed0 V c t) cover0

end Cert.KernelIdeal.Hand

end
-- ==== Proof.Region1.lean ====
/-
  THE SECOND LAUNCH: THE SCALED DENSE LAYER OF ITS FOUR OPERANDS.

  The grid has 50 points; at point t the row operand [50000, 128], the column [50000, 1] and the output
  [50000, 128] are at rows 1000·t … 1000·t + 999, while the weights [128, 128] and the bias row [1, 128] are whole
  at every point.  The body scales its row block by its column block, multiplies by the weights (both rounded to
  bf16, which changes nothing on the extended reals) into a zero accumulator, adds the bias row to every row and
  takes the maximum with zero: `layer (rowScale ·  ·) · ·` of the four blocks.  Row r of that layer reads only
  row r of the row operand and entry r of the column, so point t writes back rows 1000·t … of the layer of the whole
  arrays, and the 50 output blocks tile the output array: after the launch it is the layer of the four operand
  arrays as the launch found them — whatever those contents `V` are.
-/
import proofs.«170466_j3023656977047_1_alg».proof.Proof.Gen.KernelIdeal.Frame
import proofs.«170466_j3023656977047_1_alg».proof.Proof.LibScaledLayer
import Idealize.ShloMosaic.Lib.Pipeline.Value
import Idealize.ShloMosaic.Lib.ValueIdx

set_option maxRecDepth 16384

noncomputable section

namespace Cert.KernelIdeal.Hand1

open Cert.KernelIdeal Cert.KernelIdeal.Gen Cert.Lib.ScaledLayer Cert.Lib.PlainDot Cert.Lib.ReluLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result is the scaled layer of its four loaded blocks. -/
theorem pay1_eq (x0 : Vec Ideal S1000x128 .f32) (x1 : Vec Ideal S1000x1 .f32) (x2 : Vec Ideal S128x128 .f32)
    (x3 : Vec Ideal S1x128 .f32) :
    k1_pay1 (F := Ideal) x0 x1 x2 x3 = layer (rowScale x0 x1) x2 x3 := by
  unfold k1_pay1
  dsimp only
  simp only [shapeCast_self]
  rw [eq_plain dot_S1000x128_S128x128_S1000x128_1_0_0_1_n_n rfl rfl rfl rfl rfl rfl]
  exact scaledLayer_kernel (by decide) x0 x1 x2 x3 _ _ _ _

/-- At point t the row operand, the column and the output are at block row t, block column 0; the weights and the
    bias row are at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The row operand's block at point t is rows 1000·t … of the array. -/
theorem iblk1_0_apply (c : Dev nD) (t : Fin cfg1.N) (p : Fin 1000) (q : Fin 128) (r : Fin 50000)
    (hr : r.val = t.val * 1000 + p.val) :
    (iblk1 V c 0 t : Vec Ideal S1000x128 .f32) (ix2 p q) = (V c main_v23 : S50000x128.Idx → EReal) (ix2 r q) := by
  obtain ⟨e00, e01, -⟩ := idx1 t
  unfold iblk1
  rw [View.read_apply]
  show V c main_v23 _ = V c main_v23 _
  refine congrArg (V c main_v23) (funext fun a => Fin.ext ?_)
  match a with
  | ⟨0, _⟩ => show win1_0.index t (0 : Fin 2) * 1000 + 1 * p.val = r.val; rw [e00, hr]; omega
  | ⟨1, _⟩ => show win1_0.index t (1 : Fin 2) * 128 + 1 * q.val = q.val; rw [e01]; omega

/-- The column's block at point t is entries 1000·t … of the column. -/
theorem iblk1_1_apply (c : Dev nD) (t : Fin cfg1.N) (p : Fin 1000) (r : Fin 50000)
    (hr : r.val = t.val * 1000 + p.val) :
    (iblk1 V c 1 t : Vec Ideal S1000x1 .f32) (ix2 p (0 : Fin 1)) = (V c main_v12 : S50000x1.Idx → EReal) (ix2 r (0 : Fin 1)) := by
  obtain ⟨-, -, e10, e11, -⟩ := idx1 t
  unfold iblk1
  rw [View.read_apply]
  show V c main_v12 _ = V c main_v12 _
  refine congrArg (V c main_v12) (funext fun a => Fin.ext ?_)
  match a with
  | ⟨0, _⟩ => show win1_1.index t (0 : Fin 2) * 1000 + 1 * p.val = r.val; rw [e10, hr]; omega
  | ⟨1, _⟩ => show win1_1.index t (1 : Fin 2) * 1 + 1 * (0 : Fin 1).val = (0 : Fin 1).val; rw [e11]; rfl

/-- The weights' block at every point is the whole array. -/
theorem iblk1_2_apply (c : Dev nD) (t : Fin cfg1.N) (k : Fin 128) (q : Fin 128) :
    (iblk1 V c 2 t : Vec Ideal S128x128 .f32) (ix2 k q) = (V c main_arg1 : S128x128.Idx → EReal) (ix2 k q) := by
  obtain ⟨-, -, -, -, e20, e21, -⟩ := idx1 t
  unfold iblk1
  rw [View.read_apply]
  show V c main_arg1 _ = V c main_arg1 _
  refine congrArg (V c main_arg1) (funext fun a => Fin.ext ?_)
  match a with
  | ⟨0, _⟩ => show win1_2.index t (0 : Fin 2) * 128 + 1 * k.val = k.val; rw [e20]; omega
  | ⟨1, _⟩ => show win1_2.index t (1 : Fin 2) * 128 + 1 * q.val = q.val; rw [e21]; omega

/-- The bias row's block at every point is the whole row. -/
theorem iblk1_3_apply (c : Dev nD) (t : Fin cfg1.N) (q : Fin 128) :
    (iblk1 V c 3 t : Vec Ideal S1x128 .f32) (ix2 (0 : Fin 1) q) = (V c main_v24 : S1x128.Idx → EReal) (ix2 (0 : Fin 1) q) := by
  obtain ⟨-, -, -, -, -, -, e30, e31, -⟩ := idx1 t
  unfold iblk1
  rw [View.read_apply]
  show V c main_v24 _ = V c main_v24 _
  refine congrArg (V c main_v24) (funext fun a => Fin.ext ?_)
  match a with
  | ⟨0, _⟩ => show win1_3.index t (0 : Fin 2) * 1 + 1 * (0 : Fin 1).val = (0 : Fin 1).val; rw [e30]; rfl
  | ⟨1, _⟩ => show win1_3.index t (1 : Fin 2) * 128 + 1 * q.val = q.val; rw [e31]; omega

/-- The whole-array result of the second launch: the scaled layer of its four operand arrays. -/
abbrev result1 (c : Dev nD) : S50000x128.Idx → EReal :=
  layer (rowScale (V c main_v23 : S50000x128.Idx → EReal) (V c main_v12 : S50000x1.Idx → EReal))
    (V c main_arg1 : S128x128.Idx → EReal) (V c main_v24 : S1x128.Idx → EReal)

/-- What point t writes back is block t of the scaled layer of the four whole operand arrays. -/
theorem flushed1 (c : Dev nD) (t : Fin cfg1.N) :
    (dat1 V c).flushed 4 t = ((cfg1.win 4).blk t).view.read (Elt Ideal) (result1 V c) := by
  show (cfg1.win 4).cut (grid1.coords t) ((dat1 V c).after 4 t) = _
  rw [after1_4]
  unfold out1_4
  rw [View.canon_unit_zero hz]
  simp only [View.ld_unit_zero (S := S1000x128) hz, View.ld_unit_zero (S := S1000x1) hz,
    View.ld_unit_zero (S := S128x128) hz, View.ld_unit_zero (S := S1x128) hz]
  rw [pay1_eq]
  obtain ⟨-, -, -, -, -, -, -, -, e40, e41⟩ := idx1 t
  funext y
  obtain ⟨p, q, rfl⟩ : ∃ (p : Fin 1000) (q : Fin 128), y = ix2 p q := ⟨y 0, y 1, eq_ix2 y⟩
  have hlt : t.val * 1000 + p.val < 50000 := by
    have ht50 : t.val < 50 := lt_of_lt_of_eq t.isLt N_1
    have := p.isLt; omega
  have he : ((cfg1.win 4).blk t).view.emb (ix2 p q) = (ix2 (⟨t.val * 1000 + p.val, hlt⟩ : Fin 50000) q : S50000x128.Idx) := by
    funext a; apply Fin.ext
    match a with
    | ⟨0, _⟩ => show win1_4.index t (0 : Fin 2) * 1000 + 1 * p.val = t.val * 1000 + p.val; rw [e40]; omega
    | ⟨1, _⟩ => show win1_4.index t (1 : Fin 2) * 128 + 1 * q.val = q.val; rw [e41]; omega
  show layer (rowScale (iblk1 V c 0 t : Vec Ideal S1000x128 .f32) (iblk1 V c 1 t : Vec Ideal S1000x1 .f32))
      (iblk1 V c 2 t : Vec Ideal S128x128 .f32) (iblk1 V c 3 t : Vec Ideal S1x128 .f32) (ix2 p q)
    = result1 V c (((cfg1.win 4).blk t).view.emb (ix2 p q))
  rw [he]
  exact layer_congr _ _ _ _ _ _ (ix2 p q) (ix2 (⟨t.val * 1000 + p.val, hlt⟩ : Fin 50000) q)
    (fun k => rowScale_rows _ _ _ _ p ⟨t.val * 1000 + p.val, hlt⟩ k
      (iblk1_0_apply V c t p k _ rfl) (iblk1_1_apply V c t p _ rfl))
    (fun k => iblk1_2_apply V c t k q) (iblk1_3_apply V c t q)

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v25).slice (win1_4.rect t)).set ↔ _
  rw [View.set_slice_whole, Rect.mem_set_unit]
  exact Iff.rfl

/-- The 50 output blocks tile the output array: row r is in block r / 1000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 1000 :=
    ⟨⟨(i 0).val / 1000, by rw [show cfg1.N = 50 from N_1]; omega⟩, rfl⟩
  obtain ⟨-, -, -, -, -, -, -, -, e40, e41⟩ := idx1 t
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; rw [e40, ht]; omega
  | ⟨1, _⟩ => show win1_4.index t (1 : Fin 2) * 128 ≤ (i 1).val ∧ (i 1).val < win1_4.index t (1 : Fin 2) * 128 + 128; rw [e41]; omega

/-- After the second launch its output array is the scaled layer of its four operand arrays as the launch found them. -/
theorem final1 (c : Dev nD) : (dat1 V c).arrAt 4 cfg1.N = result1 V c :=
  (dat1 V c).arrAt_eq_of_cover 4 _ (fun t _ => flushed1 V c t) cover1

end Cert.KernelIdeal.Hand1

end
-- ==== Proof.HostSide.lean ====
/-
  THE IDEALIZED KERNEL'S RESULT AS ONE TERM OF ITS ARGUMENTS.

  With x = feature [50000, 128], W [128, 128], b [128], src and dst [600000]:

    invSqrtDeg e   = rsqrt (max 1 (ones added into zeros [50000] at the nodes e names))       — per node
    wrapped e      = e with 50000 added where it is negative, as a [600000, 1] index column
    segSum h s d   = the rows of h gathered at `wrapped s`, added into zeros [50000, 128] at the nodes d names

  Before the first launch the host stretches leave x untouched and write the column  col(invSqrtDeg src)
  (the vector recast as [50000, 1]) — and likewise col(invSqrtDeg dst), used by the second launch.  The first launch
  leaves  h = rowScale x (col (invSqrtDeg src)).  The stretch between the launches writes  segSum h src dst  and the
  bias recast as the row [1, 128]; it touches neither W nor col(invSqrtDeg dst).  The second launch then leaves
      layer (rowScale (segSum h src dst) (col (invSqrtDeg dst))) W (row b)
  in the result buffer, which is what every weakly fair execution ends with there.
-/
import proofs.«170466_j3023656977047_1_alg».proof.Proof.KernelRun
import proofs.«170466_j3023656977047_1_alg».proof.Proof.Region0
import proofs.«170466_j3023656977047_1_alg».proof.Proof.Region1
import Idealize.ShloMosaic.Lib.StableHlo.Run
import Idealize.ShloMosaic.PureOps.Ideal

set_option maxRecDepth 16384

noncomputable section

namespace Cert.KernelIdeal.Host

open Cert.KernelIdeal Cert.KernelIdeal.Gen Cert.Lib.ScaledLayer Cert.Lib.ReluLayer
open Idealize.ShloMosaic Idealize.ShloMosaic.TcCoe Idealize.SL.Sem Idealize.ShloMosaic.StableHlo

/-- The inverse square root of every node's clamped degree, the degree counted from the index array `e`. -/
abbrev invSqrtDeg (e : (⟨S600000, .i32⟩ : BufTy).Contents (Elt Ideal)) : FVec Ideal S50000 .f32 :=
  Host.rsqrt (F := Ideal) (maximumf (broadcastInDim S50000 ![] bcast_S_S50000 (id (constant (F := Ideal) S_ .f32 0x3F800000#32)))
    (Host.scatterAdd scatter_S50000_S600000x1_S600000_n_0_0_1
      (broadcastInDim S50000 ![] bcast_S_S50000 (constant (F := Ideal) S_ .f32 0x00000000#32))
      (broadcastInDim S600000x1 ![0] bcast_S600000_S600000x1_0 e)
      (broadcastInDim S600000 ![] bcast_S_S600000 (constant (F := Ideal) S_ .f32 0x3F800000#32))))

/-- The index array with 50000 added to its negative entries, as a [600000, 1] column of row indices. -/
abbrev wrapped (e : (⟨S600000, .i32⟩ : BufTy).Contents (Elt Ideal)) : (⟨S600000x1, .i32⟩ : BufTy).Contents (Elt Ideal) :=
  broadcastInDim S600000x1 ![0] bcast_S600000_S600000x1_0
    (select (cmpi .slt e (broadcastInDim S600000 ![] bcast_S_S600000 (constantI S_ 32 0#32)))
      (addi e (broadcastInDim S600000 ![] bcast_S_S600000 (constantI S_ 32 50000#32))) e)

/-- The rows of `h` gathered along `s` and added into zeros at the nodes `d` names. -/
abbrev segSum (h : FVec Ideal S50000x128 .f32) (s d : (⟨S600000, .i32⟩ : BufTy).Contents (Elt Ideal)) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 d)
    (Host.gather gather_S50000x128_S600000x1_S600000x128_1_0_n_n_0_1_1128 h (wrapped s))

variable (m : (ℓ : Loc nD τ sig) → Buf (Elt Ideal) ℓ) (ρ : Dev nD → PrngReg)

/-! ## Before the first launch -/

theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  simp only [hostOps0_4, hostOps0_3, hostOps0_2, hostOps0_1, hostOps0]
  after_results

theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  simp only [hostOps0_4, hostOps0_3, hostOps0_2, hostOps0_1, hostOps0]
  after_results

theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  simp only [hostOps0_4, hostOps0_3, hostOps0_2, hostOps0_1, hostOps0]
  after_results

theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  simp only [hostOps0_4, hostOps0_3, hostOps0_2, hostOps0_1, hostOps0]
  after_results

theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  simp only [hostOps0_4, hostOps0_3, hostOps0_2, hostOps0_1, hostOps0]
  after_results

/-- The out-degree column the first launch scales by. -/
theorem W5_v10 (c : Dev nD) : W5 m ρ c (Proc.devRef .tc main_v10)
    = shapeCast S50000x1 (invSqrtDeg (m ((c : Thread nD τ).loc main_arg3))) shapeCasts_S50000_S50000x1 := by
  show StableHlo.after hostOps0_4 (StableHlo.after hostOps0_3 (StableHlo.after hostOps0_2 (StableHlo.after hostOps0_1 (StableHlo.after hostOps0 (W0 m ρ c))))) (Proc.devRef .tc main_v10) = _
  simp only [hostOps0_4, hostOps0_3, hostOps0_2, hostOps0_1, hostOps0]
  after_results
  rfl

/-- The in-degree column the second launch scales by. -/
theorem W5_v12 (c : Dev nD) : W5 m ρ c (Proc.devRef .tc main_v12)
    = shapeCast S50000x1 (invSqrtDeg (m ((c : Thread nD τ).loc main_arg4))) shapeCasts_S50000_S50000x1 := by
  show StableHlo.after hostOps0_4 (StableHlo.after hostOps0_3 (StableHlo.after hostOps0_2 (StableHlo.after hostOps0_1 (StableHlo.after hostOps0 (W0 m ρ c))))) (Proc.devRef .tc main_v12) = _
  simp only [hostOps0_4, hostOps0_3, hostOps0_2, hostOps0_1, hostOps0]
  after_results
  rfl

/-! ## After the first launch -/

/-- The first launch's output: the rows of x scaled by the out-degree column. -/
theorem W6_v13 (c : Dev nD) : W6 m ρ c (Proc.devRef .tc main_v13)
    = rowScale (m ((c : Thread nD τ).loc main_arg0) : S50000x128.Idx → EReal)
        (shapeCast S50000x1 (invSqrtDeg (m ((c : Thread nD τ).loc main_arg3))) shapeCasts_S50000_S50000x1) := by
  refine (W6_arr m ρ c 2).trans ((Hand.final0 (V5 m ρ) c).trans ?_)
  show rowScale (W5 m ρ c (Proc.devRef .tc main_arg0)) (W5 m ρ c (Proc.devRef .tc main_v10)) = _
  rw [W5_arg0, W5_v10]

theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_v12 (c : Dev nD) : W6 m ρ c (Proc.devRef .tc main_v12)
    = shapeCast S50000x1 (invSqrtDeg (m ((c : Thread nD τ).loc main_arg4))) shapeCasts_S50000_S50000x1 :=
  (W6_of_ne m ρ c main_v12 (by decide)).trans (W5_v12 m ρ c)

/-! ## Before the second launch -/

/-- The segment sum the second launch reads, over the first launch's output. -/
theorem W7_v23 (c : Dev nD) : W7 m ρ c (Proc.devRef .tc main_v23)
    = segSum (W6 m ρ c (Proc.devRef .tc main_v13)) (W6 m ρ c (Proc.devRef .tc main_arg3)) (W6 m ρ c (Proc.devRef .tc main_arg4)) := by
  show StableHlo.after hostOps1 (W6 m ρ c) (Proc.devRef .tc main_v23) = _
  simp only [hostOps1]
  after_results

theorem W7_v12 (c : Dev nD) : W7 m ρ c (Proc.devRef .tc main_v12) = W6 m ρ c (Proc.devRef .tc main_v12) := by
  show StableHlo.after hostOps1 (W6 m ρ c) (Proc.devRef .tc main_v12) = _
  simp only [hostOps1]
  after_results

theorem W7_arg1 (c : Dev nD) : W7 m ρ c (Proc.devRef .tc main_arg1) = W6 m ρ c (Proc.devRef .tc main_arg1) := by
  show StableHlo.after hostOps1 (W6 m ρ c) (Proc.devRef .tc main_arg1) = _
  simp only [hostOps1]
  after_results

/-- The bias recast as the row [1, 128]. -/
theorem W7_v24 (c : Dev nD) : W7 m ρ c (Proc.devRef .tc main_v24)
    = shapeCast S1x128 (W6 m ρ c (Proc.devRef .tc main_arg2)) shapeCasts_S128_S1x128 := by
  show StableHlo.after hostOps1 (W6 m ρ c) (Proc.devRef .tc main_v24) = _
  simp only [hostOps1]
  after_results
  rfl

/-! ## The result -/

/-- The kernel's result as one term of the argument arrays. -/
abbrev value (x : FVec Ideal S50000x128 .f32) (w : FVec Ideal S128x128 .f32) (b : FVec Ideal S128 .f32)
    (s d : (⟨S600000, .i32⟩ : BufTy).Contents (Elt Ideal)) : S50000x128.Idx → EReal :=
  layer (rowScale (segSum (rowScale x (shapeCast S50000x1 (invSqrtDeg s) shapeCasts_S50000_S50000x1)) s d)
      (shapeCast S50000x1 (invSqrtDeg d) shapeCasts_S50000_S50000x1)) w (shapeCast S1x128 b shapeCasts_S128_S1x128)

/-- The last boundary's contents at the result buffer are `value` of the launch memory's arguments. -/
theorem W8_value (c : Dev nD) : W8 m ρ c (Proc.devRef .tc main_v25)
    = value (m ((c : Thread nD τ).loc main_arg0)) (m ((c : Thread nD τ).loc main_arg1)) (m ((c : Thread nD τ).loc main_arg2))
        (m ((c : Thread nD τ).loc main_arg3)) (m ((c : Thread nD τ).loc main_arg4)) := by
  refine (Hand.W8_result m ρ c).trans ((Hand1.final1 (V7 m ρ) c).trans ?_)
  show layer (rowScale (W7 m ρ c (Proc.devRef .tc main_v23)) (W7 m ρ c (Proc.devRef .tc main_v12)))
      (W7 m ρ c (Proc.devRef .tc main_arg1)) (W7 m ρ c (Proc.devRef .tc main_v24)) = _
  rw [W7_v23, W7_v12, W7_arg1, W7_v24, W6_v13, W6_v12, W6_arg1, W6_arg2, W6_arg3, W6_arg4]

/-- Every weakly fair execution of the idealized kernel terminates, nothing faulting, with the result buffer at
    `value` of the arguments and the arguments as launched. -/
theorem run : θ_run defs (onTc (τ := τ) (main (F := Ideal))) ⟨m, fun _ => 0, ρ⟩ (fun r => ∀ c : Dev nD,
      r.2.mem ((c.tc : Thread nD τ).loc main_v25)
        = value (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W8_value m ρ c), (h c).2⟩) (Hand.run_named m ρ)

end Cert.KernelIdeal.Host

end
-- ==== Proof.RefSide.lean ====
/-
  THE IDEALIZED REFERENCE'S RESULT IS THE KERNEL'S FUNCTION OF THE ARGUMENTS.

  The reference computes, with the same host operations for the degree counts, the index wrap, the row gather and the
  segment sum,
      max (((segSum (x · spread (invSqrtDeg src)) src dst) · spread (invSqrtDeg dst)) ·W + spread b) 0,
  where a vector of length 50000 is spread to an [50000, 1] column and then along the 128 lanes, and the bias to a
  [1, 128] row and then to every row.  A product with a vector spread that way is the row scaling by the vector recast
  as a column, and the product, bias and rectifier after it are the dense layer: the reference's term is the kernel's
  `value`.  The two programs print the same dimension records for the scatter-adds and the gather under their own
  names; a record is its lists, so they are equal.
-/
import proofs.«170466_j3023656977047_1_alg».proof.Proof.HostSide
import proofs.«170466_j3023656977047_1_alg».proof.Proof.Gen.ReferenceIdeal.Run

set_option maxRecDepth 16384

noncomputable section

namespace Cert.ReferenceIdeal.RefValue

open Cert.ReferenceIdeal Cert.ReferenceIdeal.Gen Cert.Lib.ScaledLayer Cert.Lib.PlainDot Cert.Lib.ReluLayer
open Idealize.ShloMosaic Idealize.ShloMosaic.TcCoe Idealize.SL.Sem

/-- The two programs' records for the degree counts' scatter-add are one record. -/
theorem scatterDeg_eq : scatter_S50000_S600000x1_S600000_n_0_0_1 = Cert.KernelIdeal.scatter_S50000_S600000x1_S600000_n_0_0_1 := rfl
/-- The two programs' records for the segment sum's scatter-add are one record. -/
theorem scatterRows_eq : scatter_S50000x128_S600000x1_S600000x128_1_0_0_1 = Cert.KernelIdeal.scatter_S50000x128_S600000x1_S600000x128_1_0_0_1 := rfl
/-- The two programs' records for the row gather are one record. -/
theorem gatherRows_eq : gather_S50000x128_S600000x1_S600000x128_1_0_n_n_0_1_1128 = Cert.KernelIdeal.gather_S50000x128_S600000x1_S600000x128_1_0_n_n_0_1_1128 := rfl

/-- The reference run's result term is the kernel's `value` of the same arguments. -/
theorem result_eq (x : FVec Ideal S50000x128 .f32) (w : FVec Ideal S128x128 .f32) (b : FVec Ideal S128 .f32)
    (s d : (⟨S600000, .i32⟩ : BufTy).Contents (Elt Ideal)) :
    maximumf (addf (Host.dotGeneral dot_S50000x128_S128x128_S50000x128_1_0_0_1_n_n none (mulf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 d) (Host.gather gather_S50000x128_S600000x1_S600000x128_1_0_n_n_0_1_1128 (mulf x (broadcastInDim S50000x128 ![0, 1] bcast_S50000x1_S50000x128_0_1 (broadcastInDim S50000x1 ![0] bcast_S50000_S50000x1_0 (Host.rsqrt (F := Ideal) (maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 s) (broadcastInDim S600000 ![] bcast_S_S600000 (constant (F := Ideal) S_ .f32 0x3F800000#32)))))))) (broadcastInDim S600000x1 ![0] bcast_S600000_S600000x1_0 (select (cmpi .slt s (broadcastInDim S600000 ![] bcast_S_S600000 (constantI S_ 32 0#32))) (addi s (broadcastInDim S600000 ![] bcast_S_S600000 (constantI S_ 32 50000#32))) s)))) (broadcastInDim S50000x128 ![0, 1] bcast_S50000x1_S50000x128_0_1 (broadcastInDim S50000x1 ![0] bcast_S50000_S50000x1_0 (Host.rsqrt (F := Ideal) (maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 d) (broadcastInDim S600000 ![] bcast_S_S600000 (constant (F := Ideal) S_ .f32 0x3F800000#32)))))))) w) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))
      = Cert.KernelIdeal.Host.value x w b s d := by
  rw [eq_plain dot_S50000x128_S128x128_S50000x128_1_0_0_1_n_n rfl rfl rfl rfl rfl rfl]
  refine (scaledLayer_host (by decide) _ _ w b bcast_S50000_S50000x1_0 bcast_S50000x1_S50000x128_0_1
    Cert.KernelIdeal.Facts₀.shapeCasts_S50000_S50000x1 bcast_S128_S1x128_1 Cert.KernelIdeal.Facts₀.shapeCasts_S128_S1x128
    bcast_S1x128_S50000x128_0_1 bcast_S_S50000x128).trans ?_
  rw [rowScale_host x _ bcast_S50000_S50000x1_0 bcast_S50000x1_S50000x128_0_1 Cert.KernelIdeal.Facts₀.shapeCasts_S50000_S50000x1]
  rw [scatterDeg_eq, scatterRows_eq, gatherRows_eq]

end Cert.ReferenceIdeal.RefValue

end
-- ==== Proof.lean ====
/-
  Degree-normalised graph convolution: a two-launch kernel against its plain reference, on the extended reals.

  Both programs compute, for node features x [50000, 128], weights W [128, 128], bias b [128] and edge lists
  src, dst [600000],
      out = max ((D_in^(-1/2) · A · D_out^(-1/2) · x) · W + b) 0,
  where the degrees are counted by adding ones into zeros along src (out-degree) and dst (in-degree) and clamped
  below at one, D^(-1/2) is `rsqrt` of the clamped degree, and A · h is the rows of h gathered along src (negative
  indices wrapped by 50000) and added into zeros along dst.

  The kernel runs the two dense stages as launches over 50 blocks of 1000 rows: the first multiplies each row of x by
  its out-degree factor (held as a [50000, 1] column), the second multiplies each row of the segment sum by its
  in-degree factor, rounds to bf16 (the identity on the extended reals), multiplies by W into a zero accumulator, adds
  the bias row and rectifies.  The degree counts, the gather and the segment sum are the same host operations in both
  programs.  The reference spells the row scalings as products with the factor vector spread to [50000, 128] and the
  dense stage as one dot_general over all 50000 rows.

  The proof reads each launch's output array as one function of its operand arrays (row r of either stage depends
  only on row r of the operands, and the 50 blocks tile the rows), reads the host stretches around the launches, and
  finds the kernel's result and the reference's result to be the same term: no law of arithmetic is used beyond
  reading both spellings of a row scaling and of a dense layer at an index, so the finiteness of the inputs is never
  opened.  The three frames are the generated ones (the reference's is its generated run with the result dropped);
  the idealization rewrote no operation, so `preserves` is `True`.
-/
import proofs.«170466_j3023656977047_1_alg».proof.Defs
import proofs.«170466_j3023656977047_1_alg».proof.Proof.Gen.Kernel
import proofs.«170466_j3023656977047_1_alg».proof.Proof.Gen.Kernel.Skeleton
import proofs.«170466_j3023656977047_1_alg».proof.Proof.Gen.Kernel.Launch
import proofs.«170466_j3023656977047_1_alg».proof.Proof.Gen.Kernel.Points
import proofs.«170466_j3023656977047_1_alg».proof.Proof.Gen.Kernel.Frame
import proofs.«170466_j3023656977047_1_alg».proof.Proof.Gen.KernelIdeal
import proofs.«170466_j3023656977047_1_alg».proof.Proof.Gen.KernelIdeal.Skeleton
import proofs.«170466_j3023656977047_1_alg».proof.Proof.Gen.KernelIdeal.Launch
import proofs.«170466_j3023656977047_1_alg».proof.Proof.Gen.KernelIdeal.Points
import proofs.«170466_j3023656977047_1_alg».proof.Proof.Gen.KernelIdeal.Frame
import proofs.«170466_j3023656977047_1_alg».proof.Proof.Gen.ReferenceIdeal
import proofs.«170466_j3023656977047_1_alg».proof.Proof.Gen.Pre_finite_inputs
import proofs.«170466_j3023656977047_1_alg».proof.Proof.Gen.ReferenceIdeal.Run
import proofs.«170466_j3023656977047_1_alg».proof.Proof.HostSide
import proofs.«170466_j3023656977047_1_alg».proof.Proof.RefSide
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the kernel's
    `value` of the arguments: the kernel by its run read through both launches, the reference by its run's term. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
